-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .i1⟩
  | .hbm, ⟨12, _⟩ => ⟨S_, .f32⟩
  | .hbm, ⟨13, _⟩ => ⟨S10000x128, .f32⟩
  | .hbm, ⟨14, _⟩ => ⟨S10000x128, .i1⟩
  | .hbm, ⟨15, _⟩ => ⟨S_, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v4 : Ref sig .tc := ⟨.hbm, 18, rfl⟩
abbrev main_call0_v5 : Ref sig .tc := ⟨.hbm, 19, rfl⟩
abbrev main_call0_cst_2 : Ref sig .tc := ⟨.hbm, 20, rfl⟩
abbrev main_call0_v6 : Ref sig .tc := ⟨.hbm, 21, rfl⟩
abbrev main_call0_v7 : Ref sig .tc := ⟨.hbm, 22, rfl⟩
abbrev main_v5 : Ref sig .tc := ⟨.hbm, 23, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.EluForms.lean ====
/-
  The exponential-linear unit in two spellings, on the extended reals.

  Write `a` for the pre-activation. Where `0 < a` both spellings return `a`. Elsewhere `a ≤ 0`, so
  `min a 0 = a` and the guarded argument `if 0 < a then 0 else a` is `a` too; the value is then
  `exp a - 1` in one spelling and `1 * (exp a - 1)` in the other, and `1 * y = y`.
  Nothing here needs `a` finite: at `a = ⊥` both spellings read `exp ⊥ - 1 = 0 - 1`.
  The two float patterns that occur, 0x00000000 and 0x3F800000 at f32, denote `0` and `1`.
-/
import Idealize.ShloMosaic.PureOps.Ideal
import Idealize.ShloMosaic.PureOps.IdealRules

noncomputable section

namespace Cert.EluForms

open Idealize.ShloMosaic

/-- The f32 pattern of `0.0` denotes the extended real `0`. -/
theorem zero_word : Ideal.ofBits .f32 0x00000000#32 = 0 := IdealRules.sign_bit.ideal_zero .f32

/-- The f32 pattern of `1.0` denotes the extended real `1`. -/
theorem one_word : Ideal.ofBits .f32 0x3F800000#32 = 1 := IdealRules.sign_bit.ideal_onePat .f32

/-- `select (a > 0) a (exp (min a 0) - 1)` and `select (a > 0) a (1 * (exp (select (a > 0) 0 a) - 1))`
    are one function of `a` on the extended reals. -/
theorem elu_scalar (a : EReal) :
    Scalar.select (Ideal.cmp .ogt a 0) a (Ideal.exp (min a 0) - 1)
      = Scalar.select (Ideal.cmp .ogt a 0) a
          (1 * (Ideal.exp (Scalar.select (Ideal.cmp .ogt a 0) 0 a) - 1)) := by
  by_cases h : (0 : EReal) < a
  · simp [Scalar.select, Ideal.cmp, h]
  · have hle : a ≤ 0 := not_lt.mp h
    simp [Scalar.select, Ideal.cmp, h, min_eq_left hle]

end Cert.EluForms

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.Spec.lean ====
/-
  The graph-convolution layer as ONE function of its four argument arrays, index by index.

  With `x : [10000, 128]`, `adj : [10000, 10000]`, `w : [128, 128]`, `b : [128]`:
    support (k, q)  = ∑ l : Fin 128,   x (k, l) * w (l, q)
    pre (r, q)      = (∑ k : Fin 10000, adj (r, k) * support (k, q)) + b q
    layer (r, q)    = elu (pre (r, q)),    elu a = a where 0 < a, else exp (min a 0) - 1
  The grouping is `adj · (x · w)` on purpose: both programs form the support first and multiply the
  adjacency into it, so no re-association of the double sum is ever needed.
-/
import Idealize.ShloMosaic.PureOps.Ideal
import Idealize.ShloMosaic.Lib.ValueIdx

noncomputable section

namespace Cert.Spec

open Idealize.ShloMosaic Idealize.ShloMosaic.ValueIdx

/-- The shapes of the feature, adjacency, weight and bias arrays. -/
abbrev SX : Shape := ⟨2, ![10000, 128]⟩
abbrev SA : Shape := ⟨2, ![10000, 10000]⟩
abbrev SW : Shape := ⟨2, ![128, 128]⟩
abbrev SB : Shape := ⟨1, ![128]⟩

/-- The exponential-linear unit, in the spelling with the clamped exponent. -/
def elu (a : EReal) : EReal := Scalar.select (Ideal.cmp .ogt a 0) a (Ideal.exp (min a 0) - 1)

/-- The support `x · w` at row `k`, column `q`. -/
def support (x : SX.Idx → EReal) (w : SW.Idx → EReal) (k : Fin 10000) (q : Fin 128) : EReal :=
  ∑ l : Fin 128, x (ix2 k l) * w (ix2 l q)

/-- The pre-activation `adj · support + b` at row `r`, column `q`. -/
def pre (x : SX.Idx → EReal) (adj : SA.Idx → EReal) (w : SW.Idx → EReal) (b : SB.Idx → EReal)
    (r : Fin 10000) (q : Fin 128) : EReal :=
  (∑ k : Fin 10000, adj (ix2 r k) * support x w k q) + b (ix1 q)

/-- The layer's output array: `elu` of the pre-activation, entry by entry. -/
def layer (x : SX.Idx → EReal) (adj : SA.Idx → EReal) (w : SW.Idx → EReal) (b : SB.Idx → EReal) :
    SX.Idx → EReal :=
  fun i => elu (pre x adj w b (i 0) (i 1))

/-- The layer at explicit coordinates. -/
theorem layer_ix2 (x : SX.Idx → EReal) (adj : SA.Idx → EReal) (w : SW.Idx → EReal) (b : SB.Idx → EReal)
    (r : Fin 10000) (q : Fin 128) : layer x adj w b (ix2 r q) = elu (pre x adj w b r q) := rfl

end Cert.Spec

end
-- ==== Proof.RefRun.lean ====
/-
  The reference program's run, read back.

  Its entry function is a straight line of twenty host operations once the three outlined functions are
  written out at their calls: two matrix products (the support `x · w`, then `adj · support`), the bias
  broadcast to a row and then to every row, the sum, and the fifteen operations of the exponential-linear
  unit — the comparison with zero (twice), the guarded argument `select (a > 0) 0 a`, `expm1` of it,
  the product with the constant one, and the final `select (a > 0) a _`.
  Every weakly fair execution therefore terminates with the result buffer at the composition of these
  operations over the launch contents of the four arguments, and the arguments unchanged.
-/
import proofs.«171337_g33114197852789_cont_8to1_b_407_4_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the unit's and its two selects' written out at their calls. -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v4) main_call0.v0 main_call0.v1 (cmpf .ogt),
    TRef.nullary main_call0.cst_0 (constant S_ .f32 0x00000000#32),
    TRef.unary main_call0.cst_0 main_call0.v2 (broadcastInDim S10000x128 ![] bcast_S_S10000x128),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x128 ![] bcast_S_S10000x128),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S10000x128 ![] bcast_S_S10000x128),
    TRef.binary main_call0.v6 main_call0.v5 main_call0.v7 mulf,
    TRef.ternary main_call0.v1 (.of main_v4) main_call0.v7 main_call0.call1.v0 select ]

set_option maxRecDepth 1024 in
/-- The entry function is that straight line: the outlined functions unfolded at their calls, sequencing re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., unary_bufs_sub .., unary_bufs_sub .., binary_bufs_sub ..,
    nullary_bufs_sub .., unary_bufs_sub .., binary_bufs_sub .., nullary_bufs_sub .., unary_bufs_sub ..,
    binary_bufs_sub .., nullary_bufs_sub .., unary_bufs_sub .., unary_bufs_sub .., ternary_bufs_sub ..,
    unary_bufs_sub .., nullary_bufs_sub .., unary_bufs_sub .., binary_bufs_sub .., ternary_bufs_sub ..⟩

/-- The pre-activation as the operations compose it: `adj · (x · w)` plus the bias on every row. -/
def preTerm (x : FVec F S10000x128 .f32) (adj : FVec F S10000x10000 .f32) (w : FVec F S128x128 .f32) (b : FVec F S128 .f32) :
    FVec F S10000x128 .f32 :=
  addf (Host.dotGeneral dot_S10000x10000_S10000x128_S10000x128_1_0_0_1_n_n none adj
      (Host.dotGeneral dot_S10000x128_S128x128_S10000x128_1_0_0_1_n_n none x w))
    (broadcastInDim S10000x128 ![0, 1] bcast_S1x128_S10000x128_0_1 (broadcastInDim S1x128 ![1] bcast_S128_S1x128_1 b))

/-- The exponential-linear unit as the operations compose it, in the spelling with the guarded argument. -/
def eluTerm (a : FVec F S10000x128 .f32) : FVec F S10000x128 .f32 :=
  select (cmpf .ogt a (broadcastInDim S10000x128 ![] bcast_S_S10000x128 (constant S_ .f32 0x00000000#32))) a
    (mulf (broadcastInDim S10000x128 ![] bcast_S_S10000x128 (constant S_ .f32 0x3F800000#32))
      (Host.expm1 (select (cmpf .ogt a (broadcastInDim S10000x128 ![] bcast_S_S10000x128 (constant S_ .f32 0x00000000#32)))
        (broadcastInDim S10000x128 ![] bcast_S_S10000x128 (id (constant S_ .f32 0x00000000#32))) a)))

/-- On every device, from any memory with zero counters: every weakly fair execution of the entry function
    terminates with the result at the unit of the pre-activation of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = eluTerm (preTerm (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v5).trans (by after_results <;> rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.RefRun

end
-- ==== Proof.RefValue.lean ====
/-
  The reference's result is the layer of the specification, index by index, on the extended reals.

  Both host matrix products are plain sums over their one contracted axis; the bias, broadcast first to a
  one-row array and then to every row, reads `b q` at `(r, q)`; so the pre-activation the reference
  forms is the specification's. Its exponential-linear unit is written with the guarded argument and a
  product by the constant one; entry by entry that is the specification's clamped spelling.
-/
import proofs.«171337_g33114197852789_cont_8to1_b_407_4_alg».proof.Proof.RefRun
import proofs.«171337_g33114197852789_cont_8to1_b_407_4_alg».proof.Proof.LibDotSum
import proofs.«171337_g33114197852789_cont_8to1_b_407_4_alg».proof.Proof.Spec
import proofs.«171337_g33114197852789_cont_8to1_b_407_4_alg».proof.Proof.EluForms
import Idealize.ShloMosaic.PureOps.Ideal.Laws
import Idealize.ShloMosaic.Lib.ValueIdx
import Idealize.ShloMosaic.Lib.Pipeline.Value

noncomputable section

namespace Cert.RefValue

open Cert.ReferenceIdeal Cert.ReferenceIdeal.Gen Idealize.ShloMosaic Idealize.ShloMosaic.ValueIdx Idealize.ShloMosaic.Pipeline

/-- The host product `x · w` at `(k, q)` is the specification's support. -/
theorem support_dot (x : FVec Ideal S10000x128 .f32) (w : FVec Ideal S128x128 .f32) (k : Fin 10000) (q : Fin 128) :
    Host.dotGeneral (F := Ideal) dot_S10000x128_S128x128_S10000x128_1_0_0_1_n_n none x w (ix2 k q) = Spec.support x w k q :=
  (Ideal.dotGeneral_apply dot_S10000x128_S128x128_S10000x128_1_0_0_1_n_n none .single x w (ix2 k q)).trans
    (LibDotSum.sum_contr_eq_sum_fin dot_S10000x128_S128x128_S10000x128_1_0_0_1_n_n rfl rfl
      (fun _ _ => rfl) (fun _ _ => rfl) (fun _ _ => rfl) (fun _ _ => rfl) x w (ix2 k q))

/-- The host product of the adjacency with any `[10000, 128]` array at `(r, q)` is the sum over the 10000 shared rows. -/
theorem adj_dot (adj : FVec Ideal S10000x10000 .f32) (s : FVec Ideal S10000x128 .f32) (r : Fin 10000) (q : Fin 128) :
    Host.dotGeneral (F := Ideal) dot_S10000x10000_S10000x128_S10000x128_1_0_0_1_n_n none adj s (ix2 r q)
      = ∑ k : Fin 10000, adj (ix2 r k) * s (ix2 k q) :=
  (Ideal.dotGeneral_apply dot_S10000x10000_S10000x128_S10000x128_1_0_0_1_n_n none .single adj s (ix2 r q)).trans
    (LibDotSum.sum_contr_eq_sum_fin dot_S10000x10000_S10000x128_S10000x128_1_0_0_1_n_n rfl rfl
      (fun _ _ => rfl) (fun _ _ => rfl) (fun _ _ => rfl) (fun _ _ => rfl) adj s (ix2 r q))

/-- The bias broadcast to a one-row array and then to every row reads the column's entry. -/
theorem bias_rows (b : FVec Ideal S128 .f32) (r : Fin 10000) (q : Fin 128) :
    broadcastInDim S10000x128 ![0, 1] bcast_S1x128_S10000x128_0_1 (broadcastInDim S1x128 ![1] bcast_S128_S1x128_1 b) (ix2 r q)
      = b (ix1 q) := by
  refine (broadcastInDim_apply _ _ _ (ix2 r q) (ix2 0 q) ?_).trans ?_
  · intro a
    match a with
    | ⟨0, _⟩ => rfl
    | ⟨1, _⟩ => rfl
  · refine broadcastInDim_apply _ _ _ (ix2 0 q) (ix1 q) ?_
    intro a
    match a with
    | ⟨0, _⟩ => rfl

/-- The pre-activation the reference composes is the specification's, at every `(r, q)`. -/
theorem pre_apply (x : FVec Ideal S10000x128 .f32) (adj : FVec Ideal S10000x10000 .f32) (w : FVec Ideal S128x128 .f32)
    (b : FVec Ideal S128 .f32) (r : Fin 10000) (q : Fin 128) :
    RefRun.preTerm (F := Ideal) x adj w b (ix2 r q) = Spec.pre x adj w b r q := by
  unfold RefRun.preTerm Spec.pre
  show _ + _ = _
  rw [adj_dot, bias_rows]
  refine congrArg (· + b (ix1 q)) (Finset.sum_congr rfl fun k _ => ?_)
  rw [support_dot]

/-- The unit in the reference's spelling is the specification's, entry by entry. -/
theorem eluTerm_apply (a : FVec Ideal S10000x128 .f32) (i : S10000x128.Idx) :
    RefRun.eluTerm (F := Ideal) a i = Spec.elu (a i) := by
  unfold RefRun.eluTerm Spec.elu
  show Scalar.select (Ideal.cmp .ogt (a i) (Ideal.ofBits .f32 0x00000000#32)) (a i)
      (Ideal.ofBits .f32 0x3F800000#32 * (Ideal.exp (Scalar.select (Ideal.cmp .ogt (a i) (Ideal.ofBits .f32 0x00000000#32))
        (Ideal.ofBits .f32 0x00000000#32) (a i)) - 1)) = _
  rw [EluForms.zero_word, EluForms.one_word]
  exact (EluForms.elu_scalar (a i)).symm

/-- The reference's result term is the layer of the specification. -/
theorem ref_is_layer (x : FVec Ideal S10000x128 .f32) (adj : FVec Ideal S10000x10000 .f32) (w : FVec Ideal S128x128 .f32)
    (b : FVec Ideal S128 .f32) :
    RefRun.eluTerm (F := Ideal) (RefRun.preTerm (F := Ideal) x adj w b) = Spec.layer x adj w b := by
  funext i
  obtain ⟨r, q, rfl⟩ : ∃ (r : Fin 10000) (q : Fin 128), i = ix2 r q := ⟨i 0, i 1, eq_ix2 i⟩
  rw [eluTerm_apply, pre_apply]
  rfl

end Cert.RefValue

end
-- ==== Proof.KernelPay.lean ====
/-
  The kernel body's two stored values, read at an index, on the extended reals.

  The value stored to the scratch is the support: at row `k`, column `q` it is
  `∑ l : Fin 128, x (k, l) * w (l, q)` — a matrix product into a zero accumulator is the plain sum.
  The value stored to the output block is, at row `p` of the block and column `q`,
  `elu ((∑ k : Fin 10000, a (p, k) * s (k, q)) + b (0, q))` with `a` the adjacency block, `s` the scratch
  contents and `b` the bias as a one-row array: the bias row is broadcast down the block's rows, and the
  comparison, the clamp, the exponential, the subtraction of one and the select act entry by entry.
-/
import proofs.«171337_g33114197852789_cont_8to1_b_407_4_alg».proof.Proof.Gen.KernelIdeal.Skeleton
import proofs.«171337_g33114197852789_cont_8to1_b_407_4_alg».proof.Proof.LibDotSum
import proofs.«171337_g33114197852789_cont_8to1_b_407_4_alg».proof.Proof.Spec
import proofs.«171337_g33114197852789_cont_8to1_b_407_4_alg».proof.Proof.EluForms
import Idealize.ShloMosaic.PureOps.Ideal.Laws
import Idealize.ShloMosaic.Lib.ValueIdx
import Idealize.ShloMosaic.Lib.Pipeline.Value

noncomputable section

namespace Cert.KernelPay

open Cert.KernelIdeal Cert.KernelIdeal.Gen Idealize.ShloMosaic Idealize.ShloMosaic.ValueIdx Idealize.ShloMosaic.Pipeline

/-- The support product at `(k, q)` is the sum over the 128 shared columns. -/
theorem support_dot (v19 : FVec Ideal S10000x128 .f32) (v20 : FVec Ideal S128x128 .f32) (k : Fin 10000) (q : Fin 128) :
    matmul (F := Ideal) dot_S10000x128_S128x128_S10000x128_1_0_0_1_n_n none v19 v20 (constant (F := Ideal) S10000x128 .f32 0x00000000#32) (ix2 k q)
      = ∑ l : Fin 128, v19 (ix2 k l) * v20 (ix2 l q) :=
  (Ideal.matmul_constant_zero_apply dot_S10000x128_S128x128_S10000x128_1_0_0_1_n_n none v19 v20 (ix2 k q)).trans
    (LibDotSum.sum_contr_eq_sum_fin dot_S10000x128_S128x128_S10000x128_1_0_0_1_n_n rfl rfl
      (fun _ _ => rfl) (fun _ _ => rfl) (fun _ _ => rfl) (fun _ _ => rfl) v19 v20 (ix2 k q))

/-- The adjacency block times the scratch at `(p, q)` is the sum over the 10000 shared rows. -/
theorem block_dot (v3 : FVec Ideal S400x10000 .f32) (v4 : FVec Ideal S10000x128 .f32) (p : Fin 400) (q : Fin 128) :
    matmul (F := Ideal) dot_S400x10000_S10000x128_S400x128_1_0_0_1_n_n none v3 v4 (constant (F := Ideal) S400x128 .f32 0x00000000#32) (ix2 p q)
      = ∑ k : Fin 10000, v3 (ix2 p k) * v4 (ix2 k q) :=
  (Ideal.matmul_constant_zero_apply dot_S400x10000_S10000x128_S400x128_1_0_0_1_n_n none v3 v4 (ix2 p q)).trans
    (LibDotSum.sum_contr_eq_sum_fin dot_S400x10000_S10000x128_S400x128_1_0_0_1_n_n rfl rfl
      (fun _ _ => rfl) (fun _ _ => rfl) (fun _ _ => rfl) (fun _ _ => rfl) v3 v4 (ix2 p q))

/-- The value stored to the scratch, at `(k, q)`: the support. -/
theorem pay1_apply (v19 : FVec Ideal S10000x128 .f32) (v20 : FVec Ideal S128x128 .f32) (k : Fin 10000) (q : Fin 128) :
    k0_pay1 (F := Ideal) v19 v20 (ix2 k q) = ∑ l : Fin 128, v19 (ix2 k l) * v20 (ix2 l q) := by
  unfold k0_pay1
  refine (congrFun (shapeCast_self _ _) _).trans ?_
  exact support_dot v19 v20 k q

/-- The bias row, re-cast to its own shape and broadcast down the block, reads the row's entry of the column. -/
theorem bias_row (v6 : FVec Ideal S1x128 .f32) (p : Fin 400) (q : Fin 128) :
    broadcastTo S400x128 (shapeCast S1x128 v6 shapeCasts_S1x128_S1x128) broadcasts_S1x128_S400x128 (ix2 p q)
      = v6 (ix2 0 q) := by
  refine (broadcastTo_apply _ _ (ix2 p q) (ix2 0 q) ?_).trans ?_
  · intro a
    match a with
    | ⟨0, _⟩ => rfl
    | ⟨1, _⟩ => rfl
  · exact congrFun (shapeCast_self _ _) _

/-- The value stored to the output block, at `(p, q)`: the unit of the block row's product with the scratch column, plus the bias. -/
theorem pay2_apply (v3 : FVec Ideal S400x10000 .f32) (v4 : FVec Ideal S10000x128 .f32) (v6 : FVec Ideal S1x128 .f32)
    (p : Fin 400) (q : Fin 128) :
    k0_pay2 (F := Ideal) v3 v4 v6 (ix2 p q)
      = Spec.elu ((∑ k : Fin 10000, v3 (ix2 p k) * v4 (ix2 k q)) + v6 (ix2 0 q)) := by
  have e5 := block_dot v3 v4 p q
  have e8 := bias_row v6 p q
  unfold k0_pay2
  show Scalar.select (Ideal.cmp .ogt (_ + _) (Ideal.ofBits .f32 0x00000000#32)) (_ + _)
      (Ideal.exp (min (_ + _) (Ideal.ofBits .f32 0x00000000#32)) - Ideal.ofBits .f32 0x3F800000#32) = _
  rw [e5, e8, EluForms.zero_word, EluForms.one_word]
  rfl

end Cert.KernelPay

end
-- ==== Proof.KernelPieces.lean ====
/-
  What one run of the kernel body leaves behind, as the body's stored values of its loads.

  At the first grid point the body stores the support `x · w` over the whole scratch, reads it back, and
  stores the unit of `block · scratch + bias` over the whole output block; so the scratch is left at the
  support of the loaded `x` and `w`, and the output block at the output value computed FROM that support.
  At every later point the scratch is not stored: it keeps what the point before left, and the output
  block is the output value computed from those kept contents.
  All loads read whole buffers and both stores cover their buffers, so no junk survives a store.
-/
import proofs.«171337_g33114197852789_cont_8to1_b_407_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelPieces

open Cert.KernelIdeal Cert.KernelIdeal.Gen

variable {F : FTy → Type} [FloatOps F]

/-- The offset of every load and store of the body: the origin. -/
theorem hz : (![0, 0] : Fin 2 → Nat) = fun _ => 0 := funext fun a => by fin_cases a <;> rfl

/-- FIRST POINT, the scratch: left at the support of the loaded feature and weight blocks. -/
theorem scratch_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S1x128 .f32) :
    sout0_A_0 c i arg1 harg1 arg2 harg2 arg3 harg3 arg4 harg4 arg5 harg5 arg6 harg6 hc0 x0 x1 x2 x3 = k0_pay1 x0 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg3.read_unread, View.ld_unit_zero (S := S10000x128) hz,
    View.ld_unit_zero (S := S128x128) hz]

/-- FIRST POINT, the output block: the output value of the adjacency block, the support just stored, and the bias row. -/
theorem out_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc0 : cond0_0 i)
    (x0 : Vec F S10000x128 .f32) (x1 : Vec F S400x10000 .f32) (x2 : Vec F S128x128 .f32) (x3 : Vec F S1x128 .f32) :
    out0_A_4 c i arg1 harg1 arg2 harg2 arg3 harg3 arg4 harg4 arg5 harg5 arg6 harg6 hc0 x0 x1 x2 x3 = k0_pay2 x1 (k0_pay1 x0 x2) x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz, View.readCov_unit_zero (S := S10000x128) _ hz]
  simp only [View.readAt_eq_ld, harg1.read_unread, harg2.read_unread, harg3.read_unread, harg4.read_unread,
    View.ld_unit_zero (S := S10000x128) hz, View.ld_unit_zero (S := S128x128) hz,
    View.ld_unit_zero (S := S400x10000) hz, View.ld_unit_zero (S := S1x128) hz]

/-- LATER POINTS, the output block: the output value of the adjacency block, the kept scratch contents, and the bias row. -/
theorem out_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc0 : ¬cond0_0 i)
    (x0 : Vec F S10000x128 .f32) (x1 : Vec F S400x10000 .f32) (x2 : Vec F S128x128 .f32) (x3 : Vec F S1x128 .f32) (xs0 : Vec F S10000x128 .f32) :
    out0_B_4 c i arg1 harg1 arg2 harg2 arg3 harg3 arg4 harg4 arg5 harg5 arg6 harg6 hc0 x0 x1 x2 x3 xs0 = k0_pay2 x1 xs0 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  rw [View.canon_unit_zero hz]
  simp only [View.readAt_eq_ld, harg2.read_unread, harg4.read_unread, harg6.read_unread,
    View.ld_unit_zero (S := S400x10000) hz, View.ld_unit_zero (S := S1x128) hz, View.ld_unit_zero (S := S10000x128) hz]

end Cert.KernelPieces

end
-- ==== Proof.KernelValue.lean ====
/-
  The kernel's output array is the layer of the specification, on the extended reals.

  The grid has 25 points; point `t` stages rows `400 t … 400 t + 399` of the adjacency, the whole feature
  and weight arrays and the one-row bias, and writes back rows `400 t … 400 t + 399` of the output.
  The scratch is stored once, at point 0, with the support of the feature and weight arrays, and no later
  point stores it: by induction on the point it holds that support after EVERY point. So what point `t`
  writes back is, at row `p` of its block and column `q`, the unit of
  `∑ k, adj (400 t + p, k) * support (k, q) + b q` — block `t` of the layer. The 25 blocks are disjoint row
  bands that fill the array (row `r` lies in block `r / 400`), so the array after the run is the layer.
-/
import proofs.«171337_g33114197852789_cont_8to1_b_407_4_alg».proof.Proof.Gen.KernelIdeal.Value
import proofs.«171337_g33114197852789_cont_8to1_b_407_4_alg».proof.Proof.KernelPay
import proofs.«171337_g33114197852789_cont_8to1_b_407_4_alg».proof.Proof.KernelPieces
import proofs.«171337_g33114197852789_cont_8to1_b_407_4_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelValue

open Cert.KernelIdeal Cert.KernelIdeal.Gen Idealize.ShloMosaic.ValueIdx Idealize.ShloMosaic.Pipeline

variable (m : (ℓ : Loc nD τ sig) → Buf (Elt Ideal) ℓ) (ρ : Dev nD → PrngReg)

/-- The block index maps over the grid: the feature, weight and bias windows stay at block (0, 0); the adjacency
    and output windows are at block (t, 0) at point `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The grid's first point. -/
def t0 : Fin cfg0.N := ⟨0, by rw [show cfg0.N = 25 from N_0]; decide⟩

/-- The layer of the four argument arrays as launched on core `c`. -/
def layerOf (c : Dev nD) : S10000x128.Idx → EReal :=
  Spec.layer (m ((c : Thread nD τ).loc main_arg0)) (m ((c : Thread nD τ).loc main_arg1))
    (m ((c : Thread nD τ).loc main_arg2)) (m ((c : Thread nD τ).loc main_arg3))

/-! ## The windows' blocks, read at an index -/

/-- The feature window's block is the whole feature array, at every point. -/
theorem x_blk (c : Dev nD) (t : Fin cfg0.N) (y : S10000x128.Idx) :
    (iblk m c 0 t : Vec Ideal S10000x128 .f32) y = (m ((c : Thread nD τ).loc main_arg0) : S10000x128.Idx → EReal) y := by
  obtain ⟨e0, e1, -⟩ := idx_facts t
  unfold iblk
  rw [View.read_apply]
  have h : V m c main_arg0 (((cfg0.win 0).blk t).view.emb y) = V m c main_arg0 y :=
    congrArg (V m c main_arg0) (funext fun a => Fin.ext (by
      match a with
      | ⟨0, _⟩ => show win0_0.index t (0 : Fin 2) * 10000 + 1 * (y 0).val = (y 0).val; omega
      | ⟨1, _⟩ => show win0_0.index t (1 : Fin 2) * 128 + 1 * (y 1).val = (y 1).val; omega))
  exact h.trans (congrFun (V_main_arg0 m c) y)

/-- The weight window's block is the whole weight array, at every point. -/
theorem w_blk (c : Dev nD) (t : Fin cfg0.N) (y : S128x128.Idx) :
    (iblk m c 2 t : Vec Ideal S128x128 .f32) y = (m ((c : Thread nD τ).loc main_arg2) : S128x128.Idx → EReal) y := by
  obtain ⟨-, -, -, -, e0, e1, -⟩ := idx_facts t
  unfold iblk
  rw [View.read_apply]
  have h : V m c main_arg2 (((cfg0.win 2).blk t).view.emb y) = V m c main_arg2 y :=
    congrArg (V m c main_arg2) (funext fun a => Fin.ext (by
      match a with
      | ⟨0, _⟩ => show win0_2.index t (0 : Fin 2) * 128 + 1 * (y 0).val = (y 0).val; omega
      | ⟨1, _⟩ => show win0_2.index t (1 : Fin 2) * 128 + 1 * (y 1).val = (y 1).val; omega))
  exact h.trans (congrFun (V_main_arg2 m c) y)

/-- The adjacency window's block at point `t` is rows `400 t … 400 t + 399` of the adjacency. -/
theorem adj_blk (c : Dev nD) (t : Fin cfg0.N) (p : Fin 400) (k : Fin 10000) (hr : t.val * 400 + p.val < 10000) :
    (iblk m c 1 t : Vec Ideal S400x10000 .f32) (ix2 p k)
      = (m ((c : Thread nD τ).loc main_arg1) : S10000x10000.Idx → EReal) (ix2 (⟨t.val * 400 + p.val, hr⟩ : Fin 10000) k) := by
  obtain ⟨-, -, e0, e1, -⟩ := idx_facts t
  unfold iblk
  rw [View.read_apply]
  have h : V m c main_arg1 (((cfg0.win 1).blk t).view.emb (ix2 p k)) = V m c main_arg1 (ix2 (⟨t.val * 400 + p.val, hr⟩ : Fin 10000) k) :=
    congrArg (V m c main_arg1) (funext fun a => Fin.ext (by
      match a with
      | ⟨0, _⟩ => show win0_1.index t (0 : Fin 2) * 400 + 1 * p.val = t.val * 400 + p.val; omega
      | ⟨1, _⟩ => show win0_1.index t (1 : Fin 2) * 10000 + 1 * k.val = k.val; omega))
  exact h.trans (congrFun (V_main_arg1 m c) _)

/-- The one-row array the bias window stages is the bias re-cast to one row: the host operation before the region. -/
theorem bias_row_eq (c : Dev nD) :
    (V m c main_v0 : S1x128.Idx → EReal)
      = shapeCast S1x128 (m ((c : Thread nD τ).loc main_arg3) : S128.Idx → EReal) shapeCasts_S128_S1x128 := by
  dsimp only [V, hostOps0]
  after_results
  rfl

/-- The bias window's block reads the bias entry of the column, at every point. -/
theorem bias_blk (c : Dev nD) (t : Fin cfg0.N) (q : Fin 128) :
    (iblk m c 3 t : Vec Ideal S1x128 .f32) (ix2 0 q) = (m ((c : Thread nD τ).loc main_arg3) : S128.Idx → EReal) (ix1 q) := by
  obtain ⟨-, -, -, -, -, -, e0, e1, -⟩ := idx_facts t
  unfold iblk
  rw [View.read_apply]
  have h : V m c main_v0 (((cfg0.win 3).blk t).view.emb (ix2 0 q)) = V m c main_v0 (ix2 0 q) :=
    congrArg (V m c main_v0) (funext fun a => Fin.ext (by
      match a with
      | ⟨0, _⟩ => show win0_3.index t (0 : Fin 2) * 1 + 1 * 0 = 0; omega
      | ⟨1, _⟩ => show win0_3.index t (1 : Fin 2) * 128 + 1 * q.val = q.val; omega))
  refine h.trans ((congrFun (bias_row_eq m c) (ix2 0 q)).trans ?_)
  refine shapeCast_apply _ _ (ix2 0 q) (ix1 q) ?_
  rw [Shape.rowMajor_val_one, Shape.rowMajor_val_two]
  show q.val = 0 * 128 + q.val
  omega

/-! ## The scratch after every point -/

/-- The support of the staged feature and weight arrays: what point 0 stores to the scratch. -/
def sup (c : Dev nD) : Vec Ideal S10000x128 .f32 :=
  k0_pay1 (F := Ideal) (iblk m c 0 t0) (iblk m c 2 t0)

/-- The staged support is the specification's, at every `(k, q)`. -/
theorem sup_apply (c : Dev nD) (k : Fin 10000) (q : Fin 128) :
    sup m c (ix2 k q) = Spec.support (m ((c : Thread nD τ).loc main_arg0)) (m ((c : Thread nD τ).loc main_arg2)) k q := by
  unfold sup
  refine (KernelPay.pay1_apply (iblk m c 0 t0) (iblk m c 2 t0) k q).trans ?_
  unfold Spec.support
  exact Finset.sum_congr rfl fun l _ => by rw [x_blk m c t0 (ix2 k l), w_blk m c t0 (ix2 l q)]

/-- At a point where the scratch is stored (the point's number is a multiple of 25, so only point 0), it is left at
    the support of that point's feature and weight blocks. -/
theorem scratch_stored (c : Dev nD) (t : Fin cfg0.N) (h0 : t.val % 25 = 0) :
    (outsAt0 m c t.val t.isLt).2 = k0_pay1 (F := Ideal) (iblk m c 0 t) (iblk m c 2 t) := by
  rw [outsAt0_A m c t h0]
  dsimp only
  exact KernelPieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)

/-- After EVERY point the scratch holds the support: point 0 stores it, and no later point stores the scratch. -/
theorem scratch_at (c : Dev nD) (n : ℕ) (hn : n < cfg0.N) : (outsAt0 m c n hn).2 = sup m c := by
  induction n with
  | zero => exact scratch_stored m c t0 rfl
  | succ n ih =>
    have h25 : n + 1 < 25 := lt_of_lt_of_eq hn (show cfg0.N = 25 from N_0)
    have h0 : ¬(⟨n + 1, hn⟩ : Fin cfg0.N).val % 25 = 0 := by dsimp only; omega
    rw [outsAt0_B m c ⟨n + 1, hn⟩ h0]
    dsimp only
    unfold sout0_B_0
    exact ih _

/-! ## What each point writes back -/

/-- The output block's contents after the body at point `t`: the output value of the adjacency block, the support and the bias row. -/
theorem out_at (c : Dev nD) (t : Fin cfg0.N) :
    (outsAt0 m c t.val t.isLt).1 = k0_pay2 (F := Ideal) (iblk m c 1 t) (sup m c) (iblk m c 3 t) := by
  have hlt : t.val < 25 := lt_of_lt_of_eq t.isLt (show cfg0.N = 25 from N_0)
  by_cases h0 : t.val % 25 = 0
  · have ht : t = t0 := Fin.ext (show t.val = 0 by omega)
    subst ht
    refine (congrArg Prod.fst (outsAt0_A m c t0 h0)).trans ?_
    exact KernelPieces.out_first (F := Ideal) c (grid0.coords t0) (ms0_0 t0) (hs0_0 t0) (ms0_1 t0) (hs0_1 t0) (ms0_2 t0) (hs0_2 t0) (ms0_3 t0) (hs0_3 t0) (ms0_4 t0) (hs0_4 t0) scM0_0 (Memref.isWhole_whole _) ((hcond0_0 t0).mpr h0) (iblk m c 0 t0) (iblk m c 1 t0) (iblk m c 2 t0) (iblk m c 3 t0)
  · refine (congrArg Prod.fst (outsAt0_B m c t h0)).trans ?_
    refine (KernelPieces.out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2).trans ?_
    rw [scratch_at m c (t.val - 1) (Nat.lt_of_le_of_lt (Nat.sub_le _ _) t.isLt)]

/-- WHAT POINT `t` WRITES BACK is block `t` of the layer. -/
theorem flushed_eq (c : Dev nD) (t : Fin cfg0.N) :
    (dats m 0 c).flushed 4 t = ((cfg0.win 4).blk t).view.read (Elt Ideal) (layerOf m c) := by
  have hlt : t.val < 25 := lt_of_lt_of_eq t.isLt (show cfg0.N = 25 from N_0)
  obtain ⟨-, -, -, -, -, -, -, -, e0, e1⟩ := idx_facts t
  rw [Cert.KernelIdeal.Value.flushed4, out_at m c t]
  funext y
  obtain ⟨p, q, rfl⟩ : ∃ (p : Fin 400) (q : Fin 128), y = ix2 p q := ⟨y 0, y 1, eq_ix2 y⟩
  have hrow : t.val * 400 + p.val < 10000 := by have := p.isLt; omega
  have hemb : ((cfg0.win 4).blk t).view.emb (ix2 p q) = ix2 (⟨t.val * 400 + p.val, hrow⟩ : Fin 10000) q :=
    funext fun a => Fin.ext (by
      match a with
      | ⟨0, _⟩ => show win0_4.index t (0 : Fin 2) * 400 + 1 * p.val = t.val * 400 + p.val; omega
      | ⟨1, _⟩ => show win0_4.index t (1 : Fin 2) * 128 + 1 * q.val = q.val; omega)
  show k0_pay2 (F := Ideal) (iblk m c 1 t) (sup m c) (iblk m c 3 t) (ix2 p q)
      = layerOf m c (((cfg0.win 4).blk t).view.emb (ix2 p q))
  refine (KernelPay.pay2_apply (iblk m c 1 t) (sup m c) (iblk m c 3 t) p q).trans ?_
  refine Eq.trans ?_ (congrArg (layerOf m c) hemb).symm
  unfold layerOf
  rw [Spec.layer_ix2]
  unfold Spec.pre
  refine congrArg Spec.elu (congrArg₂ (· + ·) (Finset.sum_congr rfl fun k _ => ?_) (bias_blk m c t q))
  rw [adj_blk m c t p k hrow, sup_apply m c k q]

/-! ## The array after the run -/

/-- Every row lies in the block of its band: row `r` in block `r / 400`. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨-, -, -, -, -, -, -, -, e0, e1⟩ := idx_facts t
  have ht : t.val = (i 0).val / 400 := rfl
  refine ⟨t, flush0_4 t, ?_⟩
  show i ∈ ((View.whole main_v1).slice (win0_4.rect t)).set
  rw [View.set_slice_whole, Rect.mem_set_unit]
  intro a
  match a with
  | ⟨0, _⟩ =>
    show win0_4.index t (0 : Fin 2) * 400 ≤ (i 0).val ∧ (i 0).val < win0_4.index t (0 : Fin 2) * 400 + 400
    omega
  | ⟨1, _⟩ =>
    show win0_4.index t (1 : Fin 2) * 128 ≤ (i 1).val ∧ (i 1).val < win0_4.index t (1 : Fin 2) * 128 + 128
    omega

/-- THE OUTPUT ARRAY after the run is the layer. -/
theorem final (c : Dev nD) : (dats m 0 c).arrAt 4 cfg0.N = layerOf m c :=
  (dats m 0 c).arrAt_eq_of_cover 4 (layerOf m c) (fun t _ => flushed_eq m c t) cover

/-- The kernel's run, read: every weakly fair execution terminates with the output array at the layer of the
    argument arrays as launched, and the arguments unchanged. -/
theorem run : θ_run defs (onTc (τ := τ) (main (F := Ideal))) ⟨m, fun _ => 0, ρ⟩ fun r => ∀ c : Dev nD,
      r.2.mem ((c : Thread nD τ).loc main_v1) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelValue

end
-- ==== Proof.lean ====
/-
  A graph-convolution layer, `elu (adj · (x · w) + b)`, computed by a gridded kernel and by a host program:
  the two results are equal as arrays of extended reals.

  The kernel walks 25 row bands of the adjacency. At the first band it forms the support `x · w` in a scratch
  buffer, which every later band reads unchanged; for its band it multiplies the adjacency rows into the
  support, adds the bias, and applies the unit as `a` where `0 < a`, else `exp (min a 0) - 1`.
  The host program forms the same support, the same product and sum over the whole array, and applies the
  unit as `a` where `0 < a`, else `1 * expm1 (if 0 < a then 0 else a)`.
  Both group the double sum as `adj · (x · w)`, so the only law between the two sides is the scalar one:
  where `a ≤ 0`, `min a 0 = a` and `1 * (exp a - 1) = exp a - 1`. It holds at every extended real, so the
  finiteness of the inputs is never used. The kernel's array after the run is that layer because its 25 row
  bands are written once each and fill the array.
  The idealization rewrote nothing, so there is nothing to preserve beyond the program's own text.
-/
import proofs.«171337_g33114197852789_cont_8to1_b_407_4_alg».proof.Defs
import proofs.«171337_g33114197852789_cont_8to1_b_407_4_alg».proof.Proof.Gen.Kernel
import proofs.«171337_g33114197852789_cont_8to1_b_407_4_alg».proof.Proof.Gen.Kernel.Skeleton
import proofs.«171337_g33114197852789_cont_8to1_b_407_4_alg».proof.Proof.Gen.Kernel.Launch
import proofs.«171337_g33114197852789_cont_8to1_b_407_4_alg».proof.Proof.Gen.Kernel.Points
import proofs.«171337_g33114197852789_cont_8to1_b_407_4_alg».proof.Proof.Gen.Kernel.Frame
import proofs.«171337_g33114197852789_cont_8to1_b_407_4_alg».proof.Proof.Gen.KernelIdeal
import proofs.«171337_g33114197852789_cont_8to1_b_407_4_alg».proof.Proof.Gen.KernelIdeal.Skeleton
import proofs.«171337_g33114197852789_cont_8to1_b_407_4_alg».proof.Proof.Gen.KernelIdeal.Launch
import proofs.«171337_g33114197852789_cont_8to1_b_407_4_alg».proof.Proof.Gen.KernelIdeal.Points
import proofs.«171337_g33114197852789_cont_8to1_b_407_4_alg».proof.Proof.Gen.KernelIdeal.Frame
import proofs.«171337_g33114197852789_cont_8to1_b_407_4_alg».proof.Proof.Gen.KernelIdeal.Value
import proofs.«171337_g33114197852789_cont_8to1_b_407_4_alg».proof.Proof.Gen.ReferenceIdeal
import proofs.«171337_g33114197852789_cont_8to1_b_407_4_alg».proof.Proof.Gen.Pre_finite_inputs
import proofs.«171337_g33114197852789_cont_8to1_b_407_4_alg».proof.Proof.EluForms
import proofs.«171337_g33114197852789_cont_8to1_b_407_4_alg».proof.Proof.LibDotSum
import proofs.«171337_g33114197852789_cont_8to1_b_407_4_alg».proof.Proof.Spec
import proofs.«171337_g33114197852789_cont_8to1_b_407_4_alg».proof.Proof.RefRun
import proofs.«171337_g33114197852789_cont_8to1_b_407_4_alg».proof.Proof.RefValue
import proofs.«171337_g33114197852789_cont_8to1_b_407_4_alg».proof.Proof.KernelPay
import proofs.«171337_g33114197852789_cont_8to1_b_407_4_alg».proof.Proof.KernelPieces
import proofs.«171337_g33114197852789_cont_8to1_b_407_4_alg».proof.Proof.KernelValue
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The host program is a straight line of twenty operations: it runs to the end and writes no argument. -/
theorem frame_reference : Cert.frame_ReferenceIdeal := fun m ρ _ =>
  (θ_run Cert.ReferenceIdeal.defs _ _).mono (fun _ h c => (h c).2) (Cert.RefRun.run (F := Ideal) m ρ)

/-- The idealization rewrote no operation. -/
theorem preserves : Cert.preserves_Kernel_KernelIdeal := trivial

/-- From memories that agree on the four arguments, the kernel's output array and the host program's result are
    the same layer of those arguments, entry by entry. -/
theorem algebraic : Cert.algebraic_KernelIdeal_ReferenceIdeal := by
  intro m ρ m' ρ' _ hagree
  refine ⟨fun c => Cert.KernelValue.layerOf m c, Cert.KernelValue.run m ρ, ?_⟩
  refine (θ_run Cert.ReferenceIdeal.defs _ _).mono (fun _ h c => ⟨(h c).1.trans ?_, (h c).2⟩)
    (Cert.RefRun.run (F := Ideal) m' ρ')
  rw [(hagree c).1, (hagree c).2.1, (hagree c).2.2.1, (hagree c).2.2.2]
  exact Cert.RefValue.ref_is_layer _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
